-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x1 : Shape := ⟨2, ![100000, 1]⟩
abbrev S5000x128 : Shape := ⟨2, ![5000, 128]⟩

abbrev nBuf : Space → Nat
  | .hbm => 97
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128x128, .f32⟩
  | .hbm, ⟨33, _⟩ => ⟨S128x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S128, .f32⟩
  | .hbm, ⟨55, _⟩ => ⟨S1x128x128, .f32⟩
  | .hbm, ⟨56, _⟩ => ⟨S128x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128x128, .f32⟩
  | .hbm, ⟨79, _⟩ => ⟨S128x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_10 : Ref sig .tc := ⟨.hbm, 80, rfl⟩
abbrev main_v61 : Ref sig .tc := ⟨.hbm, 81, rfl⟩
abbrev main_v62 : Ref sig .tc := ⟨.hbm, 82, rfl⟩
abbrev main_c_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v73) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S100000x1 : Shape := ⟨2, ![100000, 1]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128x128, .f32⟩
  | .hbm, ⟨33, _⟩ => ⟨S128x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S1x128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S1x128x128, .f32⟩
  | .hbm, ⟨64, _⟩ => ⟨S128x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S1x128x128, .f32⟩
  | .hbm, ⟨91, _⟩ => ⟨S128x128, .f32⟩
  | .hbm, ⟨92, _⟩ => ⟨S1x128, .f32⟩
  | .hbm, ⟨93, _⟩ => ⟨S128, .f32⟩
  | .hbm, ⟨94, _⟩ => ⟨S1x128x128, .f32⟩
  | .hbm, ⟨95, _⟩ => ⟨S128x128, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S_, .f32⟩
  | .hbm, ⟨106, _⟩ => ⟨S100000x128, .f32⟩
  | .hbm, ⟨107, _⟩ => ⟨S1600000x1, .i32⟩
  | .hbm, ⟨108, _⟩ => ⟨S100000x128, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S_, .f32⟩
  | .hbm, ⟨119, _⟩ => ⟨S100000x128, .f32⟩
  | .hbm, ⟨120, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call2_cst : Ref sig .tc := ⟨.hbm, 87, rfl⟩
abbrev main_call2_v0 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_10 : Ref sig .tc := ⟨.hbm, 96, rfl⟩
abbrev main_v73 : Ref sig .tc := ⟨.hbm, 97, rfl⟩
abbrev main_v74 : Ref sig .tc := ⟨.hbm, 98, rfl⟩
abbrev main_c_11 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call3_cst : Ref sig .tc := ⟨.hbm, 118, rfl⟩
abbrev main_call3_v0 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageKernelRun.lean ====
/-
  The kernel program's run with its result named.

  The program is eight segments in order: three stretches of host operations, the first dense stage, a stretch, the
  second dense stage, a stretch, the third dense stage. Every weakly fair execution from a memory with zero counters
  terminates without a fault, and in the final state every buffer that outlives the stages holds the contents of the
  last boundary, `W8`: the result array (written by the third stage) at `W8` of its reference, and the five argument
  arrays as launched. What `W8` of the result reference is, as a function of the arguments, is read off afterwards.
-/
import proofs.«145548_j27169963114977_1_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents of
    its reference and the argument arrays end as launched. -/
theorem run_result : θ_run defs (onTc (τ := τ) (main (F := F))) ⟨m, fun _ => 0, ρ⟩ (fun r => ∀ c : Dev nD,
      r.2.mem ((c.tc : Thread nD τ).loc main_v74) = W8 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v74 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.SageRun

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.SageDense.lean ====
/-
  One dense stage of a GraphSAGE layer, on the extended reals.

  For a matrix A of aggregated neighbour features and a matrix Z of node features, both with n rows of 128 entries, two
  128 × 128 weight matrices WL and WR and a bias row B of 128 entries, the stage's output at row r and column c is

      max ( (∑ₖ A(r,k)·WL(k,c) + ∑ₖ Z(r,k)·WR(k,c)) + B(c) , 0 ).

  Two programs spell it. One multiplies each operand into a zero accumulator, adds the two products, then the bias spread
  over the rows, then takes the maximum with a splat zero. The other takes the host's two matrix products and adds the
  bias between them: (A·WL + B) + Z·WR. Addition of extended reals is commutative and associative (no cancellation is
  involved), so the two orders agree everywhere, infinite entries included.

  The stage is local to rows: row r of the output reads only row r of A and of Z. Hence the output restricted to a band
  of rows is the stage applied to the same band of A and Z (`dense_rows`).
-/
import Idealize.ShloMosaic.PureOps.Ideal.Laws
import Idealize.ShloMosaic.Lib.ValueIdx
import proofs.«145548_j27169963114977_1_alg».proof.Proof.LibPlainDot

noncomputable section

namespace Cert.Sage

open Idealize.ShloMosaic Idealize.ShloMosaic.ValueIdx

/-- The dense stage: entry (r, c) is max((∑ₖ A(r,k)·WL(k,c) + ∑ₖ Z(r,k)·WR(k,c)) + B(c), 0). -/
def dense {n : Nat} (A Z : (⟨2, ![n, 128]⟩ : Shape).Idx → EReal) (WL WR : (⟨2, ![128, 128]⟩ : Shape).Idx → EReal)
    (B : (⟨1, ![128]⟩ : Shape).Idx → EReal) : (⟨2, ![n, 128]⟩ : Shape).Idx → EReal :=
  fun j => max (((∑ k : Fin 128, A (ix2 (j 0) k) * WL (ix2 k (j 1))) + ∑ k : Fin 128, Z (ix2 (j 0) k) * WR (ix2 k (j 1)))
    + B (ix1 (j 1))) 0

/-- The stage at an entry given by its row and column. -/
theorem dense_ix2 {n : Nat} (A Z : (⟨2, ![n, 128]⟩ : Shape).Idx → EReal) (WL WR : (⟨2, ![128, 128]⟩ : Shape).Idx → EReal)
    (B : (⟨1, ![128]⟩ : Shape).Idx → EReal) (r : Fin n) (c : Fin 128) :
    dense A Z WL WR B (ix2 r c)
      = max (((∑ k : Fin 128, A (ix2 r k) * WL (ix2 k c)) + ∑ k : Fin 128, Z (ix2 r k) * WR (ix2 k c)) + B (ix1 c)) 0 := rfl

/-- Two accumulated products added, then the bias spread over the rows, then the maximum with a zero splat: the stage. -/
theorem dense_of_matmuls {n : Nat} {φ₁ φ₂ : FTy} (D : DotDims ⟨2, ![n, 128]⟩ ⟨2, ![128, 128]⟩ ⟨2, ![n, 128]⟩)
    (hD : D = DotDims.plain n 128 128)
    (A Z : FVec Ideal ⟨2, ![n, 128]⟩ φ₁) (WL WR : FVec Ideal ⟨2, ![128, 128]⟩ φ₂)
    (Bb : FVec Ideal ⟨2, ![n, 128]⟩ .f32) (B : (⟨1, ![128]⟩ : Shape).Idx → EReal)
    (hB : ∀ (r : Fin n) (c : Fin 128), Bb (ix2 r c) = B (ix1 c))
    (O : FVec Ideal ⟨2, ![n, 128]⟩ .f32) (hO : ∀ j, O j = 0) :
    maximumf (addf (addf (matmul D none A WL (constant (F := Ideal) ⟨2, ![n, 128]⟩ .f32 0x00000000#32))
        (matmul D none Z WR (constant (F := Ideal) ⟨2, ![n, 128]⟩ .f32 0x00000000#32))) Bb) O
      = dense A Z WL WR B := by
  funext j
  obtain ⟨r, c, rfl⟩ : ∃ (r : Fin n) (c : Fin 128), j = ix2 r c := ⟨j 0, j 1, eq_ix2 j⟩
  rw [maximumf_apply, addf_apply, addf_apply, PlainDot.matmul_zero_apply D hD, PlainDot.matmul_zero_apply D hD, hB, hO,
    dense_ix2]
  rfl

/-- The host's product of A with WL, plus the bias, plus the host's product of Z with WR, then the maximum with a zero
    splat: the stage again, the bias moved past the second product. -/
theorem dense_of_hostDots {n : Nat} (D : DotDims ⟨2, ![n, 128]⟩ ⟨2, ![128, 128]⟩ ⟨2, ![n, 128]⟩)
    (hD : D = DotDims.plain n 128 128)
    (A Z : FVec Ideal ⟨2, ![n, 128]⟩ .f32) (WL WR : FVec Ideal ⟨2, ![128, 128]⟩ .f32)
    (Bb : FVec Ideal ⟨2, ![n, 128]⟩ .f32) (B : (⟨1, ![128]⟩ : Shape).Idx → EReal)
    (hB : ∀ (r : Fin n) (c : Fin 128), Bb (ix2 r c) = B (ix1 c))
    (O : FVec Ideal ⟨2, ![n, 128]⟩ .f32) (hO : ∀ j, O j = 0) :
    maximumf (addf (addf (Host.dotGeneral D none A WL) Bb) (Host.dotGeneral D none Z WR)) O = dense A Z WL WR B := by
  funext j
  obtain ⟨r, c, rfl⟩ : ∃ (r : Fin n) (c : Fin 128), j = ix2 r c := ⟨j 0, j 1, eq_ix2 j⟩
  rw [maximumf_apply, addf_apply, addf_apply, PlainDot.hostDot_apply D hD, PlainDot.hostDot_apply D hD, hB, hO, dense_ix2,
    add_right_comm]
  rfl

/-- Row locality: along a map `ρ` of rows, the stage of A and Z read at the mapped rows is the stage of the band A', Z'
    that holds those rows. -/
theorem dense_rows {n n' : Nat} (ρ : Fin n' → Fin n)
    (A Z : (⟨2, ![n, 128]⟩ : Shape).Idx → EReal) (A' Z' : (⟨2, ![n', 128]⟩ : Shape).Idx → EReal)
    (WL WR : (⟨2, ![128, 128]⟩ : Shape).Idx → EReal) (B : (⟨1, ![128]⟩ : Shape).Idx → EReal)
    (hA : ∀ (y : Fin n') (k : Fin 128), A' (ix2 y k) = A (ix2 (ρ y) k))
    (hZ : ∀ (y : Fin n') (k : Fin 128), Z' (ix2 y k) = Z (ix2 (ρ y) k))
    (y : Fin n') (c : Fin 128) :
    dense A' Z' WL WR B (ix2 y c) = dense A Z WL WR B (ix2 (ρ y) c) := by
  rw [dense_ix2, dense_ix2]
  simp only [hA, hZ]

end Cert.Sage

end
-- ==== Proof.SageGlue.lean ====
/-
  The graph part of a GraphSAGE layer as named functions, and the whole three-layer network.

  Both programs read the edge list e (two rows of 1,600,000 node numbers: sources, destinations) in the same way: the
  in-degree of every node by a scatter-add of ones along the destinations, its reciprocal where the degree is positive
  (zero elsewhere), and per layer the mean over in-neighbours — gather the rows of the features z at the sources (a
  negative source wrapped round once by the number of nodes), scatter-add them along the destinations into zeros, scale
  row i by the reciprocal degree of i. None of this is opened here: gather and scatter-add stay the host's own functions,
  and the two programs are compared only through the fact that they apply the same functions to the same arrays.

  A layer is then the dense stage (`Cert.Sage.dense`) of the neighbour mean and the features with the layer's two weight
  matrices and its bias row; the network is three layers, the k-th reading the k-th 128 × 128 slab of each weight array
  and the k-th row of the bias array.

  The reference spells a layer with the host's two products and the bias between them (`layerHost`); at the extended
  reals that is the dense stage (`layerHost_eq`).
-/
import proofs.«145548_j27169963114977_1_alg».proof.ReferenceIdeal
import proofs.«145548_j27169963114977_1_alg».proof.Proof.Gen.ReferenceIdeal
import proofs.«145548_j27169963114977_1_alg».proof.Proof.SageDense
import Idealize.ShloMosaic.Lib.Pipeline.Value

noncomputable section

namespace Cert.Sage

open Cert.ReferenceIdeal Cert.ReferenceIdeal.Gen Idealize.ShloMosaic Idealize.ShloMosaic.ValueIdx

section AnyFloat

variable {F : FTy → Type} [FloatOps F]

/-- The edges' sources: row 0 of the edge list. -/
def edgeSrc (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edges' destinations: row 1 of the edge list. -/
def edgeDst (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The in-degree of every node: ones scattered and added along the destinations. -/
def inDegree (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (edgeDst (F := F) e))
    (broadcastInDim S1600000 ![] bcast_S_S1600000 (constant S_ .f32 0x3F800000#32))

/-- The reciprocal in-degree where the degree is positive, zero elsewhere. -/
def invDegree (e : (⟨S2x1600000, .i32⟩ : BufTy).Contents (Elt F)) : (⟨S100000, .f32⟩ : BufTy).Contents (Elt F) :=
  select (cmpf (F := F) .ogt (inDegree (F := F) e) (broadcastInDim S100000 ![] bcast_S_S100000 (constant S_ .f32 0x00000000#32)))
    (Host.divf (broadcastInDim S100000 ![] bcast_S_S100000 (constant S_ .f32 0x3F800000#32))
      (maximumf (inDegree (F := F) e) (broadcastInDim S100000 ![] bcast_S_S100000 (constant S_ .f32 0x3F800000#32))))
    (broadcastInDim S100000 ![] bcast_S_S100000 (id (constant S_ .f32 0x00000000#32)))

/-- The mean over in-neighbours from the sources, the destinations and the reciprocal degrees as given: gather the rows
    of z at the sources (a negative source wrapped round once), scatter-add them along the destinations into zeros, scale
    row i by the reciprocal degree of i. -/
def meanOf (z : (⟨S100000x128, .f32⟩ : BufTy).Contents (Elt F)) (src dst : (⟨S1600000, .i32⟩ : BufTy).Contents (Elt F))
    (dinv : (⟨S100000, .f32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 z
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0 dinv))

/-- The mean of the features over every node's in-neighbours, from the edge list. -/
def neighbourMean (z : (⟨S100000x128, .f32⟩ : BufTy).Contents (Elt F)) (e : (⟨S2x1600000, .i32⟩ : BufTy).Contents (Elt F)) :
    (⟨S100000x128, .f32⟩ : BufTy).Contents (Elt F) :=
  meanOf (F := F) z (edgeSrc (F := F) e) (edgeDst (F := F) e) (invDegree (F := F) e)

/-- The 128 × 128 slab of a weight array that starts at `o`. -/
def slab (W : (⟨S3x128x128, .f32⟩ : BufTy).Contents (Elt F)) (o : Fin 3 → Nat) (h : S3x128x128.Slices o S1x128x128) :
    (⟨S128x128, .f32⟩ : BufTy).Contents (Elt F) :=
  shapeCast S128x128 (extractStridedSlice S1x128x128 o W h) shapeCasts_S1x128x128_S128x128

/-- The row of the bias array that starts at `o`. -/
def biasRow (b : (⟨S3x128, .f32⟩ : BufTy).Contents (Elt F)) (o : Fin 2 → Nat) (h : S3x128.Slices o S1x128) :
    (⟨S128, .f32⟩ : BufTy).Contents (Elt F) :=
  shapeCast S128 (extractStridedSlice S1x128 o b h) shapeCasts_S1x128_S128

/-- The three slabs of a weight array and the three rows of the bias array, by layer. -/
def slab0 (W : (⟨S3x128x128, .f32⟩ : BufTy).Contents (Elt F)) := slab (F := F) W ![0, 0, 0] slices_S3x128x128_S1x128x128_0_0_0
def slab1 (W : (⟨S3x128x128, .f32⟩ : BufTy).Contents (Elt F)) := slab (F := F) W ![1, 0, 0] slices_S3x128x128_S1x128x128_1_0_0
def slab2 (W : (⟨S3x128x128, .f32⟩ : BufTy).Contents (Elt F)) := slab (F := F) W ![2, 0, 0] slices_S3x128x128_S1x128x128_2_0_0
def biasRow0 (b : (⟨S3x128, .f32⟩ : BufTy).Contents (Elt F)) := biasRow (F := F) b ![0, 0] slices_S3x128_S1x128_0_0
def biasRow1 (b : (⟨S3x128, .f32⟩ : BufTy).Contents (Elt F)) := biasRow (F := F) b ![1, 0] slices_S3x128_S1x128_1_0
def biasRow2 (b : (⟨S3x128, .f32⟩ : BufTy).Contents (Elt F)) := biasRow (F := F) b ![2, 0] slices_S3x128_S1x128_2_0

/-- A layer as the reference spells it: (mean · WL + bias) + z · WR, then the maximum with zero. -/
def layerHost (z : (⟨S100000x128, .f32⟩ : BufTy).Contents (Elt F)) (e : (⟨S2x1600000, .i32⟩ : BufTy).Contents (Elt F))
    (WL : (⟨S128x128, .f32⟩ : BufTy).Contents (Elt F)) (B : (⟨S128, .f32⟩ : BufTy).Contents (Elt F))
    (WR : (⟨S128x128, .f32⟩ : BufTy).Contents (Elt F)) : (⟨S100000x128, .f32⟩ : BufTy).Contents (Elt F) :=
  maximumf
    (addf
      (addf (Host.dotGeneral dot_S100000x128_S128x128_S100000x128_1_0_0_1_n_n none (neighbourMean (F := F) z e) WL)
        (broadcastInDim S100000x128 ![0, 1] bcast_S1x128_S100000x128_0_1 (broadcastInDim S1x128 ![1] bcast_S128_S1x128_1 B)))
      (Host.dotGeneral dot_S100000x128_S128x128_S100000x128_1_0_0_1_n_n none z WR))
    (broadcastInDim S100000x128 ![] bcast_S_S100000x128 (constant S_ .f32 0x00000000#32))

/-- The three layers as the reference spells them. -/
def sageHost (x : (⟨S100000x128, .f32⟩ : BufTy).Contents (Elt F)) (e : (⟨S2x1600000, .i32⟩ : BufTy).Contents (Elt F))
    (Wl : (⟨S3x128x128, .f32⟩ : BufTy).Contents (Elt F)) (bl : (⟨S3x128, .f32⟩ : BufTy).Contents (Elt F))
    (Wr : (⟨S3x128x128, .f32⟩ : BufTy).Contents (Elt F)) : (⟨S100000x128, .f32⟩ : BufTy).Contents (Elt F) :=
  layerHost (F := F)
    (layerHost (F := F)
      (layerHost (F := F) x e (slab0 Wl) (biasRow0 bl)
        (slab0 Wr))
      e (slab1 Wl) (biasRow1 bl)
      (slab1 Wr))
    e (slab2 Wl) (biasRow2 bl)
    (slab2 Wr)

end AnyFloat

/-! ## At the extended reals -/

/-- A layer: the dense stage of the neighbour mean and the features. -/
def layer (z : (⟨S100000x128, .f32⟩ : BufTy).Contents (Elt Ideal)) (e : (⟨S2x1600000, .i32⟩ : BufTy).Contents (Elt Ideal))
    (WL : (⟨S128x128, .f32⟩ : BufTy).Contents (Elt Ideal)) (B : (⟨S128, .f32⟩ : BufTy).Contents (Elt Ideal))
    (WR : (⟨S128x128, .f32⟩ : BufTy).Contents (Elt Ideal)) : (⟨S100000x128, .f32⟩ : BufTy).Contents (Elt Ideal) :=
  dense (neighbourMean (F := Ideal) z e) z WL WR B

/-- The network: three layers, the k-th with the k-th slabs and bias row. -/
def sage (x : (⟨S100000x128, .f32⟩ : BufTy).Contents (Elt Ideal)) (e : (⟨S2x1600000, .i32⟩ : BufTy).Contents (Elt Ideal))
    (Wl : (⟨S3x128x128, .f32⟩ : BufTy).Contents (Elt Ideal)) (bl : (⟨S3x128, .f32⟩ : BufTy).Contents (Elt Ideal))
    (Wr : (⟨S3x128x128, .f32⟩ : BufTy).Contents (Elt Ideal)) : (⟨S100000x128, .f32⟩ : BufTy).Contents (Elt Ideal) :=
  layer
    (layer
      (layer x e (slab0 Wl) (biasRow0 bl)
        (slab0 Wr))
      e (slab1 Wl) (biasRow1 bl)
      (slab1 Wr))
    e (slab2 Wl) (biasRow2 bl)
    (slab2 Wr)

/-- The bias row spread over the 100000 rows reads, at (r, c), the row's entry c. -/
theorem biasSpread_apply (B : (⟨S128, .f32⟩ : BufTy).Contents (Elt Ideal)) (r : Fin 100000) (c : Fin 128) :
    (broadcastInDim S100000x128 ![0, 1] bcast_S1x128_S100000x128_0_1 (broadcastInDim S1x128 ![1] bcast_S128_S1x128_1 B) :
      S100000x128.Idx → EReal) (ix2 r c) = B (ix1 c) := by
  rw [broadcastInDim_apply _ bcast_S1x128_S100000x128_0_1 _ (ix2 r c) (ix2 (0 : Fin 1) c) (fun a => match a with
      | ⟨0, _⟩ => by show 0 = if (1 : Nat) = 1 then 0 else r.val; rw [if_pos rfl]
      | ⟨1, _⟩ => by show c.val = if (128 : Nat) = 1 then 0 else c.val; rw [if_neg (by decide)]),
    broadcastInDim_apply _ bcast_S128_S1x128_1 B (ix2 (0 : Fin 1) c) (ix1 c) (fun a => match a with
      | ⟨0, _⟩ => by show c.val = if (128 : Nat) = 1 then 0 else c.val; rw [if_neg (by decide)])]

/-- The splat of the zero word is zero at every entry. -/
theorem zeroSplat_apply (j : S100000x128.Idx) :
    (broadcastInDim S100000x128 ![] bcast_S_S100000x128 (constant (F := Ideal) S_ .f32 0x00000000#32) : S100000x128.Idx → EReal) j = 0 := by
  rw [broadcastInDim_apply _ bcast_S_S100000x128 _ j ix0 (fun a => a.elim0)]
  exact Ideal.ofBits_zero_f32

/-- The reference's spelling of a layer is the dense stage: the bias moves past the second product. -/
theorem layerHost_eq (z : (⟨S100000x128, .f32⟩ : BufTy).Contents (Elt Ideal)) (e : (⟨S2x1600000, .i32⟩ : BufTy).Contents (Elt Ideal))
    (WL : (⟨S128x128, .f32⟩ : BufTy).Contents (Elt Ideal)) (B : (⟨S128, .f32⟩ : BufTy).Contents (Elt Ideal))
    (WR : (⟨S128x128, .f32⟩ : BufTy).Contents (Elt Ideal)) :
    layerHost (F := Ideal) z e WL B WR = layer z e WL B WR :=
  dense_of_hostDots dot_S100000x128_S128x128_S100000x128_1_0_0_1_n_n rfl (neighbourMean (F := Ideal) z e) z WL WR _ B
    (biasSpread_apply B) _ zeroSplat_apply

/-- So the reference's three layers are the network. -/
theorem sageHost_eq (x : (⟨S100000x128, .f32⟩ : BufTy).Contents (Elt Ideal)) (e : (⟨S2x1600000, .i32⟩ : BufTy).Contents (Elt Ideal))
    (Wl : (⟨S3x128x128, .f32⟩ : BufTy).Contents (Elt Ideal)) (bl : (⟨S3x128, .f32⟩ : BufTy).Contents (Elt Ideal))
    (Wr : (⟨S3x128x128, .f32⟩ : BufTy).Contents (Elt Ideal)) :
    sageHost (F := Ideal) x e Wl bl Wr = sage x e Wl bl Wr := by
  unfold sageHost sage
  rw [layerHost_eq, layerHost_eq, layerHost_eq]

end Cert.Sage

end
-- ==== Proof.SageStage0.lean ====
/-
  The dense stage number 0 of the kernel program: what its output array holds after the stage.

  The stage runs over 20 grid points. At point t the body loads rows 5000·t … 5000·t + 4999 of the neighbour means and of
  the features, the two 128 × 128 weight matrices whole and the bias row whole, and stores the band of the output with the
  same rows. What it stores is the dense stage of the loaded bands (`pay_eq`: the narrowing to bf16 is the identity on
  extended reals, each product is accumulated from zero, the bias row is spread over the band's rows). Because the dense
  stage is local to rows, that band is the band of the dense stage of the WHOLE arrays (`flushed_eq`), and the 20 bands
  tile the output (`cover`); so the output array ends holding the dense stage of the arrays the stage found on entry.
-/
import proofs.«145548_j27169963114977_1_alg».proof.Proof.Gen.KernelIdeal.Frame
import proofs.«145548_j27169963114977_1_alg».proof.Proof.SageDense
import Idealize.ShloMosaic.Lib.Pipeline.Value
import Idealize.ShloMosaic.Lib.ValueLayout

set_option maxRecDepth 16384

noncomputable section

namespace Cert.KernelIdeal.Stage0

open Cert.KernelIdeal Cert.KernelIdeal.Gen
open Idealize.ShloMosaic Idealize.ShloMosaic.TcCoe Idealize.SL.Sem Idealize.ShloMosaic.ValueIdx
open Idealize.ShloMosaic.Pipeline (Dat)
open Cert.Sage

theorem hz2 : (![0, 0] : Fin 2 → Nat) = fun _ => 0 := funext fun a => by fin_cases a <;> rfl
theorem hz1 : (![0] : Fin 1 → Nat) = fun _ => 0 := funext fun a => by fin_cases a <;> rfl

/-- The body's stored value is the dense stage of the loaded bands. -/
theorem pay_eq (x0 x1 : Vec Ideal S5000x128 .f32) (x2 x3 : Vec Ideal S128x128 .f32) (x4 : Vec Ideal S128 .f32) :
    k0_pay1 (F := Ideal) x0 x1 x2 x3 x4 = dense x0 x1 x2 x3 x4 := by
  unfold k0_pay1
  simp only [shapeCast_self]
  exact dense_of_matmuls dot_S5000x128_S128x128_S5000x128_1_0_0_1_n_n rfl _ _ _ _ _ x4
    (fun r c => by rw [broadcastTo_1b_ab_apply, shapeCast_a_1a_apply]) _ (fun j => Ideal.ofBits_zero_f32)

-- the arrays as the stage finds them
variable (V : (c : Dev nD) → (b : Ref sig .tc) → Buf (Elt Ideal) ((c : Thread nD τ).loc b))

/-- The printed index maps over the grid: the three banded windows sit at band t, the three whole ones at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Where point t's band sits: row y of the band is row 5000·t + y of the array. -/
def bandRow (t : Fin cfg0.N) (y : Fin 5000) : Fin 100000 :=
  ⟨5000 * t.val + y.val, by
    have h : t.val < 20 := Nat.lt_of_lt_of_eq t.isLt (show cfg0.N = 20 from N_0)
    have := y.isLt; omega⟩

/-- The band of the neighbour means at point t: its row y is row 5000·t + y of the array. -/
theorem band0 (c : Dev nD) (t : Fin cfg0.N) (y : Fin 5000) (k : Fin 128) :
    (iblk0 V c 0 t : S5000x128.Idx → EReal) (ix2 y k) = (V c main_v33 : S100000x128.Idx → EReal) (ix2 (bandRow t y) k) := by
  obtain ⟨e0, e1, -⟩ := idx_facts t
  unfold iblk0
  rw [View.read_apply]
  show V c main_v33 _ = V c main_v33 _
  refine congrArg _ (funext fun a => Fin.ext ?_)
  match a with
  | ⟨0, _⟩ => show win0_0.index t (0 : Fin 2) * 5000 + 1 * y.val = 5000 * t.val + y.val; rw [e0]; omega
  | ⟨1, _⟩ => show win0_0.index t (1 : Fin 2) * 128 + 1 * k.val = k.val; rw [e1]; omega

/-- The band of the features at point t, likewise. -/
theorem band1 (c : Dev nD) (t : Fin cfg0.N) (y : Fin 5000) (k : Fin 128) :
    (iblk0 V c 1 t : S5000x128.Idx → EReal) (ix2 y k) = (V c main_arg0 : S100000x128.Idx → EReal) (ix2 (bandRow t y) k) := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t (0 : Fin 2) * 5000 + 1 * y.val = 5000 * t.val + y.val; rw [e0]; omega
  | ⟨1, _⟩ => show win0_1.index t (1 : Fin 2) * 128 + 1 * k.val = k.val; rw [e1]; omega

/-- The first weight matrix is loaded whole at every point. -/
theorem whole2 (c : Dev nD) (t : Fin cfg0.N) : (iblk0 V c 2 t : S128x128.Idx → EReal) = V c main_v16 := by
  obtain ⟨-, -, -, -, e0, e1, -⟩ := idx_facts t
  funext x
  unfold iblk0
  rw [View.read_apply]
  show V c main_v16 _ = V c main_v16 _
  refine congrArg _ (funext fun a => Fin.ext ?_)
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- The second weight matrix is loaded whole at every point. -/
theorem whole3 (c : Dev nD) (t : Fin cfg0.N) : (iblk0 V c 3 t : S128x128.Idx → EReal) = V c main_v20 := by
  obtain ⟨-, -, -, -, -, -, e0, e1, -⟩ := idx_facts t
  funext x
  unfold iblk0
  rw [View.read_apply]
  show V c main_v20 _ = V c main_v20 _
  refine congrArg _ (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The bias row is loaded whole at every point. -/
theorem whole4 (c : Dev nD) (t : Fin cfg0.N) : (iblk0 V c 4 t : S128.Idx → EReal) = V c main_v18 := by
  obtain ⟨-, -, -, -, -, -, -, -, e0, -⟩ := idx_facts t
  funext x
  unfold iblk0
  rw [View.read_apply]
  show V c main_v18 _ = V c main_v18 _
  refine congrArg _ (funext fun a => Fin.ext ?_)
  match a with
  | ⟨0, _⟩ => show win0_4.index t (0 : Fin 1) * 128 + 1 * (x 0).val = (x 0).val; rw [e0]; omega

/-- The array the stage's output ends holding: the dense stage of the arrays found on entry. -/
abbrev stageOut (c : Dev nD) : S100000x128.Idx → EReal :=
  dense (V c main_v33 : S100000x128.Idx → EReal) (V c main_arg0 : S100000x128.Idx → EReal) (V c main_v16 : S128x128.Idx → EReal)
    (V c main_v20 : S128x128.Idx → EReal) (V c main_v18 : S128.Idx → EReal)

/-- What point t writes back is band t of `stageOut`. -/
theorem flushed_eq (c : Dev nD) (t : Fin cfg0.N) :
    (dat0 V c).flushed 5 t = ((cfg0.win 5).blk t).view.read (Elt Ideal) (stageOut V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [pay_eq, whole2 V c t, whole3 V c t, whole4 V c t]
  obtain ⟨-, -, -, -, -, -, -, -, -, e0, e1⟩ := idx_facts t
  funext j
  obtain ⟨y, q, rfl⟩ : ∃ (y : Fin 5000) (q : Fin 128), j = ix2 y q := ⟨j 0, j 1, eq_ix2 j⟩
  rw [View.read_apply]
  have hemb : ((cfg0.win 5).blk t).view.emb (ix2 y q) = (ix2 (bandRow t y) q : S100000x128.Idx) := by
    funext a; apply Fin.ext
    match a with
    | ⟨0, _⟩ => show win0_5.index t (0 : Fin 2) * 5000 + 1 * y.val = 5000 * t.val + y.val; rw [e0]; omega
    | ⟨1, _⟩ => show win0_5.index t (1 : Fin 2) * 128 + 1 * q.val = q.val; rw [e1]; omega
  rw [hemb]
  exact dense_rows (bandRow t) _ _ _ _ _ _ _ (band0 V c t) (band1 V c t) y q

/-- An index of the output array is in point t's band iff each coordinate is in the band's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

/-- The 20 bands tile the output: row r is in band r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- THE OUTPUT ARRAY after the stage: the dense stage of the arrays found on entry. -/
theorem final (c : Dev nD) : (dat0 V c).arrAt 5 cfg0.N = stageOut V c :=
  (dat0 V c).arrAt_eq_of_cover 5 (stageOut V c) (fun t _ => flushed_eq V c t) (cover)

end Cert.KernelIdeal.Stage0

end
-- ==== Proof.SageStage1.lean ====
/-
  The dense stage number 1 of the kernel program: what its output array holds after the stage.

  The stage runs over 20 grid points. At point t the body loads rows 5000·t … 5000·t + 4999 of the neighbour means and of
  the features, the two 128 × 128 weight matrices whole and the bias row whole, and stores the band of the output with the
  same rows. What it stores is the dense stage of the loaded bands (`pay_eq`: the narrowing to bf16 is the identity on
  extended reals, each product is accumulated from zero, the bias row is spread over the band's rows). Because the dense
  stage is local to rows, that band is the band of the dense stage of the WHOLE arrays (`flushed_eq`), and the 20 bands
  tile the output (`cover`); so the output array ends holding the dense stage of the arrays the stage found on entry.
-/
import proofs.«145548_j27169963114977_1_alg».proof.Proof.Gen.KernelIdeal.Frame
import proofs.«145548_j27169963114977_1_alg».proof.Proof.SageDense
import Idealize.ShloMosaic.Lib.Pipeline.Value
import Idealize.ShloMosaic.Lib.ValueLayout

set_option maxRecDepth 16384

noncomputable section

namespace Cert.KernelIdeal.Stage1

open Cert.KernelIdeal Cert.KernelIdeal.Gen
open Idealize.ShloMosaic Idealize.ShloMosaic.TcCoe Idealize.SL.Sem Idealize.ShloMosaic.ValueIdx
open Idealize.ShloMosaic.Pipeline (Dat)
open Cert.Sage

theorem hz2 : (![0, 0] : Fin 2 → Nat) = fun _ => 0 := funext fun a => by fin_cases a <;> rfl
theorem hz1 : (![0] : Fin 1 → Nat) = fun _ => 0 := funext fun a => by fin_cases a <;> rfl

/-- The body's stored value is the dense stage of the loaded bands. -/
theorem pay_eq (x0 x1 : Vec Ideal S5000x128 .f32) (x2 x3 : Vec Ideal S128x128 .f32) (x4 : Vec Ideal S128 .f32) :
    k1_pay1 (F := Ideal) x0 x1 x2 x3 x4 = dense x0 x1 x2 x3 x4 := by
  unfold k1_pay1
  simp only [shapeCast_self]
  exact dense_of_matmuls dot_S5000x128_S128x128_S5000x128_1_0_0_1_n_n rfl _ _ _ _ _ x4
    (fun r c => by rw [broadcastTo_1b_ab_apply, shapeCast_a_1a_apply]) _ (fun j => Ideal.ofBits_zero_f32)

-- the arrays as the stage finds them
variable (V : (c : Dev nD) → (b : Ref sig .tc) → Buf (Elt Ideal) ((c : Thread nD τ).loc b))

/-- The printed index maps over the grid: the three banded windows sit at band t, the three whole ones at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Where point t's band sits: row y of the band is row 5000·t + y of the array. -/
def bandRow (t : Fin cfg1.N) (y : Fin 5000) : Fin 100000 :=
  ⟨5000 * t.val + y.val, by
    have h : t.val < 20 := Nat.lt_of_lt_of_eq t.isLt (show cfg1.N = 20 from N_1)
    have := y.isLt; omega⟩

/-- The band of the neighbour means at point t: its row y is row 5000·t + y of the array. -/
theorem band0 (c : Dev nD) (t : Fin cfg1.N) (y : Fin 5000) (k : Fin 128) :
    (iblk1 V c 0 t : S5000x128.Idx → EReal) (ix2 y k) = (V c main_v53 : S100000x128.Idx → EReal) (ix2 (bandRow t y) k) := by
  obtain ⟨e0, e1, -⟩ := idx_facts t
  unfold iblk1
  rw [View.read_apply]
  show V c main_v53 _ = V c main_v53 _
  refine congrArg _ (funext fun a => Fin.ext ?_)
  match a with
  | ⟨0, _⟩ => show win1_0.index t (0 : Fin 2) * 5000 + 1 * y.val = 5000 * t.val + y.val; rw [e0]; omega
  | ⟨1, _⟩ => show win1_0.index t (1 : Fin 2) * 128 + 1 * k.val = k.val; rw [e1]; omega

/-- The band of the features at point t, likewise. -/
theorem band1 (c : Dev nD) (t : Fin cfg1.N) (y : Fin 5000) (k : Fin 128) :
    (iblk1 V c 1 t : S5000x128.Idx → EReal) (ix2 y k) = (V c main_v34 : S100000x128.Idx → EReal) (ix2 (bandRow t y) k) := by
  obtain ⟨-, -, e0, e1, -⟩ := idx_facts t
  unfold iblk1
  rw [View.read_apply]
  show V c main_v34 _ = V c main_v34 _
  refine congrArg _ (funext fun a => Fin.ext ?_)
  match a with
  | ⟨0, _⟩ => show win1_1.index t (0 : Fin 2) * 5000 + 1 * y.val = 5000 * t.val + y.val; rw [e0]; omega
  | ⟨1, _⟩ => show win1_1.index t (1 : Fin 2) * 128 + 1 * k.val = k.val; rw [e1]; omega

/-- The first weight matrix is loaded whole at every point. -/
theorem whole2 (c : Dev nD) (t : Fin cfg1.N) : (iblk1 V c 2 t : S128x128.Idx → EReal) = V c main_v36 := by
  obtain ⟨-, -, -, -, e0, e1, -⟩ := idx_facts t
  funext x
  unfold iblk1
  rw [View.read_apply]
  show V c main_v36 _ = V c main_v36 _
  refine congrArg _ (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The second weight matrix is loaded whole at every point. -/
theorem whole3 (c : Dev nD) (t : Fin cfg1.N) : (iblk1 V c 3 t : S128x128.Idx → EReal) = V c main_v40 := by
  obtain ⟨-, -, -, -, -, -, e0, e1, -⟩ := idx_facts t
  funext x
  unfold iblk1
  rw [View.read_apply]
  show V c main_v40 _ = V c main_v40 _
  refine congrArg _ (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The bias row is loaded whole at every point. -/
theorem whole4 (c : Dev nD) (t : Fin cfg1.N) : (iblk1 V c 4 t : S128.Idx → EReal) = V c main_v38 := by
  obtain ⟨-, -, -, -, -, -, -, -, e0, -⟩ := idx_facts t
  funext x
  unfold iblk1
  rw [View.read_apply]
  show V c main_v38 _ = V c main_v38 _
  refine congrArg _ (funext fun a => Fin.ext ?_)
  match a with
  | ⟨0, _⟩ => show win1_4.index t (0 : Fin 1) * 128 + 1 * (x 0).val = (x 0).val; rw [e0]; omega

/-- The array the stage's output ends holding: the dense stage of the arrays found on entry. -/
abbrev stageOut (c : Dev nD) : S100000x128.Idx → EReal :=
  dense (V c main_v53 : S100000x128.Idx → EReal) (V c main_v34 : S100000x128.Idx → EReal) (V c main_v36 : S128x128.Idx → EReal)
    (V c main_v40 : S128x128.Idx → EReal) (V c main_v38 : S128.Idx → EReal)

/-- What point t writes back is band t of `stageOut`. -/
theorem flushed_eq (c : Dev nD) (t : Fin cfg1.N) :
    (dat1 V c).flushed 5 t = ((cfg1.win 5).blk t).view.read (Elt Ideal) (stageOut V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  rw [pay_eq, whole2 V c t, whole3 V c t, whole4 V c t]
  obtain ⟨-, -, -, -, -, -, -, -, -, e0, e1⟩ := idx_facts t
  funext j
  obtain ⟨y, q, rfl⟩ : ∃ (y : Fin 5000) (q : Fin 128), j = ix2 y q := ⟨j 0, j 1, eq_ix2 j⟩
  rw [View.read_apply]
  have hemb : ((cfg1.win 5).blk t).view.emb (ix2 y q) = (ix2 (bandRow t y) q : S100000x128.Idx) := by
    funext a; apply Fin.ext
    match a with
    | ⟨0, _⟩ => show win1_5.index t (0 : Fin 2) * 5000 + 1 * y.val = 5000 * t.val + y.val; rw [e0]; omega
    | ⟨1, _⟩ => show win1_5.index t (1 : Fin 2) * 128 + 1 * q.val = q.val; rw [e1]; omega
  rw [hemb]
  exact dense_rows (bandRow t) _ _ _ _ _ _ _ (band0 V c t) (band1 V c t) y q

/-- An index of the output array is in point t's band iff each coordinate is in the band's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v54).slice (win1_5.rect t)).set ↔ _
  rw [View.set_slice_whole, Rect.mem_set_unit]
  exact Iff.rfl

/-- The 20 bands tile the output: row r is in band r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- THE OUTPUT ARRAY after the stage: the dense stage of the arrays found on entry. -/
theorem final (c : Dev nD) : (dat1 V c).arrAt 5 cfg1.N = stageOut V c :=
  (dat1 V c).arrAt_eq_of_cover 5 (stageOut V c) (fun t _ => flushed_eq V c t) (cover)

end Cert.KernelIdeal.Stage1

end
-- ==== Proof.SageStage2.lean ====
/-
  The dense stage number 2 of the kernel program: what its output array holds after the stage.

  The stage runs over 20 grid points. At point t the body loads rows 5000·t … 5000·t + 4999 of the neighbour means and of
  the features, the two 128 × 128 weight matrices whole and the bias row whole, and stores the band of the output with the
  same rows. What it stores is the dense stage of the loaded bands (`pay_eq`: the narrowing to bf16 is the identity on
  extended reals, each product is accumulated from zero, the bias row is spread over the band's rows). Because the dense
  stage is local to rows, that band is the band of the dense stage of the WHOLE arrays (`flushed_eq`), and the 20 bands
  tile the output (`cover`); so the output array ends holding the dense stage of the arrays the stage found on entry.
-/
import proofs.«145548_j27169963114977_1_alg».proof.Proof.Gen.KernelIdeal.Frame
import proofs.«145548_j27169963114977_1_alg».proof.Proof.SageDense
import Idealize.ShloMosaic.Lib.Pipeline.Value
import Idealize.ShloMosaic.Lib.ValueLayout

set_option maxRecDepth 16384

noncomputable section

namespace Cert.KernelIdeal.Stage2

open Cert.KernelIdeal Cert.KernelIdeal.Gen
open Idealize.ShloMosaic Idealize.ShloMosaic.TcCoe Idealize.SL.Sem Idealize.ShloMosaic.ValueIdx
open Idealize.ShloMosaic.Pipeline (Dat)
open Cert.Sage

theorem hz2 : (![0, 0] : Fin 2 → Nat) = fun _ => 0 := funext fun a => by fin_cases a <;> rfl
theorem hz1 : (![0] : Fin 1 → Nat) = fun _ => 0 := funext fun a => by fin_cases a <;> rfl

/-- The body's stored value is the dense stage of the loaded bands. -/
theorem pay_eq (x0 x1 : Vec Ideal S5000x128 .f32) (x2 x3 : Vec Ideal S128x128 .f32) (x4 : Vec Ideal S128 .f32) :
    k2_pay1 (F := Ideal) x0 x1 x2 x3 x4 = dense x0 x1 x2 x3 x4 := by
  unfold k2_pay1
  simp only [shapeCast_self]
  exact dense_of_matmuls dot_S5000x128_S128x128_S5000x128_1_0_0_1_n_n rfl _ _ _ _ _ x4
    (fun r c => by rw [broadcastTo_1b_ab_apply, shapeCast_a_1a_apply]) _ (fun j => Ideal.ofBits_zero_f32)

-- the arrays as the stage finds them
variable (V : (c : Dev nD) → (b : Ref sig .tc) → Buf (Elt Ideal) ((c : Thread nD τ).loc b))

/-- The printed index maps over the grid: the three banded windows sit at band t, the three whole ones at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Where point t's band sits: row y of the band is row 5000·t + y of the array. -/
def bandRow (t : Fin cfg2.N) (y : Fin 5000) : Fin 100000 :=
  ⟨5000 * t.val + y.val, by
    have h : t.val < 20 := Nat.lt_of_lt_of_eq t.isLt (show cfg2.N = 20 from N_2)
    have := y.isLt; omega⟩

/-- The band of the neighbour means at point t: its row y is row 5000·t + y of the array. -/
theorem band0 (c : Dev nD) (t : Fin cfg2.N) (y : Fin 5000) (k : Fin 128) :
    (iblk2 V c 0 t : S5000x128.Idx → EReal) (ix2 y k) = (V c main_v73 : S100000x128.Idx → EReal) (ix2 (bandRow t y) k) := by
  obtain ⟨e0, e1, -⟩ := idx_facts t
  unfold iblk2
  rw [View.read_apply]
  show V c main_v73 _ = V c main_v73 _
  refine congrArg _ (funext fun a => Fin.ext ?_)
  match a with
  | ⟨0, _⟩ => show win2_0.index t (0 : Fin 2) * 5000 + 1 * y.val = 5000 * t.val + y.val; rw [e0]; omega
  | ⟨1, _⟩ => show win2_0.index t (1 : Fin 2) * 128 + 1 * k.val = k.val; rw [e1]; omega

/-- The band of the features at point t, likewise. -/
theorem band1 (c : Dev nD) (t : Fin cfg2.N) (y : Fin 5000) (k : Fin 128) :
    (iblk2 V c 1 t : S5000x128.Idx → EReal) (ix2 y k) = (V c main_v54 : S100000x128.Idx → EReal) (ix2 (bandRow t y) k) := by
  obtain ⟨-, -, e0, e1, -⟩ := idx_facts t
  unfold iblk2
  rw [View.read_apply]
  show V c main_v54 _ = V c main_v54 _
  refine congrArg _ (funext fun a => Fin.ext ?_)
  match a with
  | ⟨0, _⟩ => show win2_1.index t (0 : Fin 2) * 5000 + 1 * y.val = 5000 * t.val + y.val; rw [e0]; omega
  | ⟨1, _⟩ => show win2_1.index t (1 : Fin 2) * 128 + 1 * k.val = k.val; rw [e1]; omega

/-- The first weight matrix is loaded whole at every point. -/
theorem whole2 (c : Dev nD) (t : Fin cfg2.N) : (iblk2 V c 2 t : S128x128.Idx → EReal) = V c main_v56 := by
  obtain ⟨-, -, -, -, e0, e1, -⟩ := idx_facts t
  funext x
  unfold iblk2
  rw [View.read_apply]
  show V c main_v56 _ = V c main_v56 _
  refine congrArg _ (funext fun a => Fin.ext ?_)
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The second weight matrix is loaded whole at every point. -/
theorem whole3 (c : Dev nD) (t : Fin cfg2.N) : (iblk2 V c 3 t : S128x128.Idx → EReal) = V c main_v60 := by
  obtain ⟨-, -, -, -, -, -, e0, e1, -⟩ := idx_facts t
  funext x
  unfold iblk2
  rw [View.read_apply]
  show V c main_v60 _ = V c main_v60 _
  refine congrArg _ (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- The bias row is loaded whole at every point. -/
theorem whole4 (c : Dev nD) (t : Fin cfg2.N) : (iblk2 V c 4 t : S128.Idx → EReal) = V c main_v58 := by
  obtain ⟨-, -, -, -, -, -, -, -, e0, -⟩ := idx_facts t
  funext x
  unfold iblk2
  rw [View.read_apply]
  show V c main_v58 _ = V c main_v58 _
  refine congrArg _ (funext fun a => Fin.ext ?_)
  match a with
  | ⟨0, _⟩ => show win2_4.index t (0 : Fin 1) * 128 + 1 * (x 0).val = (x 0).val; rw [e0]; omega

/-- The array the stage's output ends holding: the dense stage of the arrays found on entry. -/
abbrev stageOut (c : Dev nD) : S100000x128.Idx → EReal :=
  dense (V c main_v73 : S100000x128.Idx → EReal) (V c main_v54 : S100000x128.Idx → EReal) (V c main_v56 : S128x128.Idx → EReal)
    (V c main_v60 : S128x128.Idx → EReal) (V c main_v58 : S128.Idx → EReal)

/-- What point t writes back is band t of `stageOut`. -/
theorem flushed_eq (c : Dev nD) (t : Fin cfg2.N) :
    (dat2 V c).flushed 5 t = ((cfg2.win 5).blk t).view.read (Elt Ideal) (stageOut V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  rw [pay_eq, whole2 V c t, whole3 V c t, whole4 V c t]
  obtain ⟨-, -, -, -, -, -, -, -, -, e0, e1⟩ := idx_facts t
  funext j
  obtain ⟨y, q, rfl⟩ : ∃ (y : Fin 5000) (q : Fin 128), j = ix2 y q := ⟨j 0, j 1, eq_ix2 j⟩
  rw [View.read_apply]
  have hemb : ((cfg2.win 5).blk t).view.emb (ix2 y q) = (ix2 (bandRow t y) q : S100000x128.Idx) := by
    funext a; apply Fin.ext
    match a with
    | ⟨0, _⟩ => show win2_5.index t (0 : Fin 2) * 5000 + 1 * y.val = 5000 * t.val + y.val; rw [e0]; omega
    | ⟨1, _⟩ => show win2_5.index t (1 : Fin 2) * 128 + 1 * q.val = q.val; rw [e1]; omega
  rw [hemb]
  exact dense_rows (bandRow t) _ _ _ _ _ _ _ (band0 V c t) (band1 V c t) y q

/-- An index of the output array is in point t's band iff each coordinate is in the band's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v74).slice (win2_5.rect t)).set ↔ _
  rw [View.set_slice_whole, Rect.mem_set_unit]
  exact Iff.rfl

/-- The 20 bands tile the output: row r is in band r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, -, e0, e1⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e1]; omega

/-- THE OUTPUT ARRAY after the stage: the dense stage of the arrays found on entry. -/
theorem final (c : Dev nD) : (dat2 V c).arrAt 5 cfg2.N = stageOut V c :=
  (dat2 V c).arrAt_eq_of_cover 5 (stageOut V c) (fun t _ => flushed_eq V c t) (cover)

end Cert.KernelIdeal.Stage2

end
-- ==== Proof.SageKernelValue.lean ====
/-
  What the kernel program's result array holds: the three-layer network of the arguments.

  The program alternates stretches of host operations with the three dense stages. Reading the buffers at each boundary:
  the first stretch leaves the edges' sources and destinations, the reciprocal degrees, the neighbour means of the input
  features and the first layer's weight slabs and bias row; a dense stage replaces its output array by the dense stage
  of the arrays it found and touches nothing else that is read later; each later stretch forms the neighbour means of the
  previous stage's output and cuts the next layer's slabs and bias row. Composed, the last stage's output is layer 2 of
  layer 1 of layer 0 of the input features.
-/
import proofs.«145548_j27169963114977_1_alg».proof.Proof.Gen.KernelIdeal.Frame
import proofs.«145548_j27169963114977_1_alg».proof.Proof.SageGlue
import proofs.«145548_j27169963114977_1_alg».proof.Proof.SageStage0
import proofs.«145548_j27169963114977_1_alg».proof.Proof.SageStage1
import proofs.«145548_j27169963114977_1_alg».proof.Proof.SageStage2

set_option maxRecDepth 16384

noncomputable section

namespace Cert.KernelIdeal.SageValue

open Cert.KernelIdeal Cert.KernelIdeal.Gen
open Idealize.ShloMosaic Idealize.ShloMosaic.TcCoe Idealize.SL.Sem Idealize.ShloMosaic.StableHlo
open Cert.Sage

/-! ## The host stretches, from any contents `W`, at any float instance

Each fact reads one buffer after a stretch as the named function of buffers before it: the stretch's operations composed,
nothing opened. -/

section Stretches

variable {F : FTy → Type} [FloatOps F] (W : Valuation τ sig (Elt F))

/-- The contents after the three stretches that precede the first stage. -/
abbrev entry0 : Valuation τ sig (Elt F) :=
  after (hostOps0_2 (F := F)) (after (hostOps0_1 (F := F)) (after (hostOps0 (F := F)) W))

/-! ### Before the first stage -/

theorem entry0_mean : entry0 W (Proc.devRef .tc main_v33) = neighbourMean (F := F) (W (Proc.devRef .tc main_arg0)) (W (Proc.devRef .tc main_arg1)) := by
  after_results_simp <;> rfl
theorem entry0_feat : entry0 W (Proc.devRef .tc main_arg0) = W (Proc.devRef .tc main_arg0) := by
  after_results_simp <;> rfl
theorem entry0_wl : entry0 W (Proc.devRef .tc main_v16) = slab0 (F := F) (W (Proc.devRef .tc main_arg2)) := by
  after_results_simp <;> rfl
theorem entry0_wr : entry0 W (Proc.devRef .tc main_v20) = slab0 (F := F) (W (Proc.devRef .tc main_arg4)) := by
  after_results_simp <;> rfl
theorem entry0_bias : entry0 W (Proc.devRef .tc main_v18) = biasRow0 (F := F) (W (Proc.devRef .tc main_arg3)) := by
  after_results_simp <;> rfl
theorem entry0_src : entry0 W (Proc.devRef .tc main_v1) = edgeSrc (F := F) (W (Proc.devRef .tc main_arg1)) := by
  after_results_simp <;> rfl
theorem entry0_dst : entry0 W (Proc.devRef .tc main_v3) = edgeDst (F := F) (W (Proc.devRef .tc main_arg1)) := by
  after_results_simp <;> rfl
theorem entry0_dinv : entry0 W (Proc.devRef .tc main_v14) = invDegree (F := F) (W (Proc.devRef .tc main_arg1)) := by
  after_results_simp <;> rfl
theorem entry0_arg2 : entry0 W (Proc.devRef .tc main_arg2) = W (Proc.devRef .tc main_arg2) := by
  after_results_simp <;> rfl
theorem entry0_arg3 : entry0 W (Proc.devRef .tc main_arg3) = W (Proc.devRef .tc main_arg3) := by
  after_results_simp <;> rfl
theorem entry0_arg4 : entry0 W (Proc.devRef .tc main_arg4) = W (Proc.devRef .tc main_arg4) := by
  after_results_simp <;> rfl

/-! ### Between the first and the second stage -/

theorem entry1_mean : after (hostOps1 (F := F)) W (Proc.devRef .tc main_v53) = meanOf (F := F) (W (Proc.devRef .tc main_v34)) (W (Proc.devRef .tc main_v1)) (W (Proc.devRef .tc main_v3)) (W (Proc.devRef .tc main_v14)) := by
  after_results_simp <;> rfl
theorem entry1_feat : after (hostOps1 (F := F)) W (Proc.devRef .tc main_v34) = W (Proc.devRef .tc main_v34) := by
  after_results_simp <;> rfl
theorem entry1_wl : after (hostOps1 (F := F)) W (Proc.devRef .tc main_v36) = slab1 (F := F) (W (Proc.devRef .tc main_arg2)) := by
  after_results_simp <;> rfl
theorem entry1_wr : after (hostOps1 (F := F)) W (Proc.devRef .tc main_v40) = slab1 (F := F) (W (Proc.devRef .tc main_arg4)) := by
  after_results_simp <;> rfl
theorem entry1_bias : after (hostOps1 (F := F)) W (Proc.devRef .tc main_v38) = biasRow1 (F := F) (W (Proc.devRef .tc main_arg3)) := by
  after_results_simp <;> rfl
theorem entry1_src : after (hostOps1 (F := F)) W (Proc.devRef .tc main_v1) = W (Proc.devRef .tc main_v1) := by
  after_results_simp <;> rfl
theorem entry1_dst : after (hostOps1 (F := F)) W (Proc.devRef .tc main_v3) = W (Proc.devRef .tc main_v3) := by
  after_results_simp <;> rfl
theorem entry1_dinv : after (hostOps1 (F := F)) W (Proc.devRef .tc main_v14) = W (Proc.devRef .tc main_v14) := by
  after_results_simp <;> rfl
theorem entry1_arg2 : after (hostOps1 (F := F)) W (Proc.devRef .tc main_arg2) = W (Proc.devRef .tc main_arg2) := by
  after_results_simp <;> rfl
theorem entry1_arg3 : after (hostOps1 (F := F)) W (Proc.devRef .tc main_arg3) = W (Proc.devRef .tc main_arg3) := by
  after_results_simp <;> rfl
theorem entry1_arg4 : after (hostOps1 (F := F)) W (Proc.devRef .tc main_arg4) = W (Proc.devRef .tc main_arg4) := by
  after_results_simp <;> rfl

/-! ### Between the second and the third stage -/

theorem entry2_mean : after (hostOps2 (F := F)) W (Proc.devRef .tc main_v73) = meanOf (F := F) (W (Proc.devRef .tc main_v54)) (W (Proc.devRef .tc main_v1)) (W (Proc.devRef .tc main_v3)) (W (Proc.devRef .tc main_v14)) := by
  after_results_simp <;> rfl
theorem entry2_feat : after (hostOps2 (F := F)) W (Proc.devRef .tc main_v54) = W (Proc.devRef .tc main_v54) := by
  after_results_simp <;> rfl
theorem entry2_wl : after (hostOps2 (F := F)) W (Proc.devRef .tc main_v56) = slab2 (F := F) (W (Proc.devRef .tc main_arg2)) := by
  after_results_simp <;> rfl
theorem entry2_wr : after (hostOps2 (F := F)) W (Proc.devRef .tc main_v60) = slab2 (F := F) (W (Proc.devRef .tc main_arg4)) := by
  after_results_simp <;> rfl
theorem entry2_bias : after (hostOps2 (F := F)) W (Proc.devRef .tc main_v58) = biasRow2 (F := F) (W (Proc.devRef .tc main_arg3)) := by
  after_results_simp <;> rfl

end Stretches

/-! ## The boundaries of the run, at the extended reals -/

section Boundaries

variable (m : (ℓ : Loc nD τ sig) → Buf (Elt Ideal) ℓ) (ρ : Dev nD → PrngReg) (c : Dev nD)

/-- What every later stretch still reads of the launch: the edges' sources and destinations, the reciprocal degrees and
    the three weight arrays, in the buffers where the first stretch left them. -/
structure Carried (W : Valuation τ sig (Elt Ideal)) : Prop where
  src : W (Proc.devRef .tc main_v1) = edgeSrc (F := Ideal) (m ((c.tc : Thread nD τ).loc main_arg1))
  dst : W (Proc.devRef .tc main_v3) = edgeDst (F := Ideal) (m ((c.tc : Thread nD τ).loc main_arg1))
  dinv : W (Proc.devRef .tc main_v14) = invDegree (F := Ideal) (m ((c.tc : Thread nD τ).loc main_arg1))
  wl : W (Proc.devRef .tc main_arg2) = (m ((c.tc : Thread nD τ).loc main_arg2))
  bias : W (Proc.devRef .tc main_arg3) = (m ((c.tc : Thread nD τ).loc main_arg3))
  wr : W (Proc.devRef .tc main_arg4) = (m ((c.tc : Thread nD τ).loc main_arg4))

/-- On entry to the first stage. -/
theorem carried3 : Carried m c (W3 m ρ c) :=
  ⟨entry0_src (W0 m ρ c), entry0_dst (W0 m ρ c), entry0_dinv (W0 m ρ c), entry0_arg2 (W0 m ρ c), entry0_arg3 (W0 m ρ c),
    entry0_arg4 (W0 m ρ c)⟩

/-- A stage writes none of them. -/
theorem carried4 : Carried m c (W4 m ρ c) :=
  have h := carried3 m ρ c
  ⟨(W4_of_ne m ρ c main_v1 (by decide)).trans h.src, (W4_of_ne m ρ c main_v3 (by decide)).trans h.dst,
    (W4_of_ne m ρ c main_v14 (by decide)).trans h.dinv, (W4_of_ne m ρ c main_arg2 (by decide)).trans h.wl,
    (W4_of_ne m ρ c main_arg3 (by decide)).trans h.bias, (W4_of_ne m ρ c main_arg4 (by decide)).trans h.wr⟩

/-- Nor does the stretch after it. -/
theorem carried5 : Carried m c (W5 m ρ c) :=
  have h := carried4 m ρ c
  ⟨(entry1_src (W4 m ρ c)).trans h.src, (entry1_dst (W4 m ρ c)).trans h.dst, (entry1_dinv (W4 m ρ c)).trans h.dinv,
    (entry1_arg2 (W4 m ρ c)).trans h.wl, (entry1_arg3 (W4 m ρ c)).trans h.bias, (entry1_arg4 (W4 m ρ c)).trans h.wr⟩

/-- Nor the second stage. -/
theorem carried6 : Carried m c (W6 m ρ c) :=
  have h := carried5 m ρ c
  ⟨(W6_of_ne m ρ c main_v1 (by decide)).trans h.src, (W6_of_ne m ρ c main_v3 (by decide)).trans h.dst,
    (W6_of_ne m ρ c main_v14 (by decide)).trans h.dinv, (W6_of_ne m ρ c main_arg2 (by decide)).trans h.wl,
    (W6_of_ne m ρ c main_arg3 (by decide)).trans h.bias, (W6_of_ne m ρ c main_arg4 (by decide)).trans h.wr⟩

/-- The first layer's output. -/
abbrev z1 : (⟨Cert.ReferenceIdeal.S100000x128, .f32⟩ : BufTy).Contents (Elt Ideal) :=
  layer (m ((c.tc : Thread nD τ).loc main_arg0)) (m ((c.tc : Thread nD τ).loc main_arg1)) (slab0 (m ((c.tc : Thread nD τ).loc main_arg2))) (biasRow0 (m ((c.tc : Thread nD τ).loc main_arg3))) (slab0 (m ((c.tc : Thread nD τ).loc main_arg4)))

/-- The second layer's output. -/
abbrev z2 : (⟨Cert.ReferenceIdeal.S100000x128, .f32⟩ : BufTy).Contents (Elt Ideal) :=
  layer (z1 m c) (m ((c.tc : Thread nD τ).loc main_arg1)) (slab1 (m ((c.tc : Thread nD τ).loc main_arg2))) (biasRow1 (m ((c.tc : Thread nD τ).loc main_arg3))) (slab1 (m ((c.tc : Thread nD τ).loc main_arg4)))

/-- After the first stage its output array holds the first layer of the input features. -/
theorem out0 : W4 m ρ c (Proc.devRef .tc main_v34) = z1 m c := by
  refine (W4_arr m ρ c 5).trans ((Stage0.final (V3 m ρ) c).trans ?_)
  show dense (entry0 (W0 m ρ c) (Proc.devRef .tc main_v33)) (entry0 (W0 m ρ c) (Proc.devRef .tc main_arg0)) (entry0 (W0 m ρ c) (Proc.devRef .tc main_v16))
    (entry0 (W0 m ρ c) (Proc.devRef .tc main_v20)) (entry0 (W0 m ρ c) (Proc.devRef .tc main_v18)) = _
  rw [entry0_mean, entry0_feat, entry0_wl, entry0_wr, entry0_bias]
  rfl

/-- After the second stage its output array holds the second layer of that. -/
theorem out1 : W6 m ρ c (Proc.devRef .tc main_v54) = z2 m c := by
  refine (W6_arr m ρ c 5).trans ((Stage1.final (V5 m ρ) c).trans ?_)
  have h := carried4 m ρ c
  show dense (after hostOps1 (W4 m ρ c) (Proc.devRef .tc main_v53)) (after hostOps1 (W4 m ρ c) (Proc.devRef .tc main_v34))
    (after hostOps1 (W4 m ρ c) (Proc.devRef .tc main_v36)) (after hostOps1 (W4 m ρ c) (Proc.devRef .tc main_v40))
    (after hostOps1 (W4 m ρ c) (Proc.devRef .tc main_v38)) = _
  rw [entry1_mean, entry1_feat, entry1_wl, entry1_wr, entry1_bias, out0, h.src, h.dst, h.dinv, h.wl, h.bias, h.wr]
  rfl

/-- After the third stage the result array holds the third layer of that: the network of the arguments. -/
theorem out2 : W8 m ρ c (Proc.devRef .tc main_v74)
    = sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 5).trans ((Stage2.final (V7 m ρ) c).trans ?_)
  have h := carried6 m ρ c
  show dense (after hostOps2 (W6 m ρ c) (Proc.devRef .tc main_v73)) (after hostOps2 (W6 m ρ c) (Proc.devRef .tc main_v54))
    (after hostOps2 (W6 m ρ c) (Proc.devRef .tc main_v56)) (after hostOps2 (W6 m ρ c) (Proc.devRef .tc main_v60))
    (after hostOps2 (W6 m ρ c) (Proc.devRef .tc main_v58)) = _
  rw [entry2_mean, entry2_feat, entry2_wl, entry2_wr, entry2_bias, out1, h.src, h.dst, h.dinv, h.wl, h.bias, h.wr]
  rfl

end Boundaries

end Cert.KernelIdeal.SageValue

end
-- ==== Proof.SageRefValue.lean ====
/-
  The reference program's result is the three-layer network of its arguments.

  The reference is host operations only, and its run ends with the result array at the operations' composed term of the
  arguments. That term is, read from the outside in, three times "maximum with zero of (mean · WL + bias) + z · WR", each
  over the same gather / scatter-add reading of the edge list: literally the reference's spelling of the network
  (`Cert.Sage.sageHost`), hence at the extended reals the network itself (`Cert.Sage.sageHost_eq`).
-/
import proofs.«145548_j27169963114977_1_alg».proof.Proof.RefRunPatched
import proofs.«145548_j27169963114977_1_alg».proof.Proof.SageGlue

noncomputable section

namespace Cert.ReferenceIdeal.SageRef

open Cert.ReferenceIdeal Cert.ReferenceIdeal.Gen Cert.ReferenceIdeal.ValueP
open Idealize.ShloMosaic Idealize.ShloMosaic.TcCoe Idealize.SL.Sem
open Cert.Sage

set_option maxRecDepth 16384 in
/-- The composed term is the reference's spelling of the network, at any float instance. -/
theorem res_spelling {F : FTy → Type} [FloatOps F] (m : (ℓ : Loc nD τ sig) → Buf (Elt F) ℓ) (c : Dev nD) :
    res_main_v92 (F := F) m c
      = sageHost (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold res_main_v92 sageHost layerHost neighbourMean meanOf invDegree inDegree edgeSrc edgeDst slab0 slab1 slab2 biasRow0 biasRow1 biasRow2 slab biasRow
  rfl

/-- The reference's run at the extended reals: the result array ends at the network of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92)
        = sage (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1.trans (res_spelling m c)).trans (sageHost_eq _ _ _ _ _), (h c).2⟩)
    (Cert.ReferenceIdeal.ValueP.run (F := Ideal) m ρ)

end Cert.ReferenceIdeal.SageRef

end
-- ==== Proof.lean ====
/-
  A three-layer GraphSAGE network: the kernel program against the reference program, on the extended reals.

  Both programs take node features x (100000 × 128), an edge list e (2 × 1600000 node numbers), and three layers' worth
  of weights Wl, Wr (3 × 128 × 128) and biases bl (3 × 128). A layer sends features z to

      max( mean_e(z) · WL + z · WR + B , 0 ),

  where mean_e(z) is the mean of z over every node's in-neighbours (gather at the edges' sources, scatter-add along the
  destinations, scale by the reciprocal in-degree). Both programs compute mean_e(z) by the same host operations; they
  differ in the dense part. The kernel program runs it as a pipelined stage over 20 bands of 5000 rows, each band the
  two products accumulated from zero, added, plus the bias, maximum with zero. The reference takes the host's two
  matrix products with the bias added between them. On the extended reals every product is the exact sum over the 128
  contracted entries (narrowing an operand to bf16 changes nothing), and (a + b) + c = (a + c) + b needs no finiteness,
  so each layer is the same function of its inputs in both programs, and so is the composition of three.

  The modules: `SageDense` (the dense stage, its two spellings, its locality to rows), `SageGlue` (the graph part and the
  network as named functions; the reference's spelling of a layer is the dense stage), `SageStage0/1/2` (what each
  pipelined stage leaves in its output array), `SageKernelRun` (the kernel program's run with its result named),
  `SageKernelValue` (the buffers at every boundary of that run; the result array is the network of the arguments),
  `SageRefValue` (the reference's run ends at the network of the arguments).

  The kernel is not rewritten by idealization, so there is nothing to preserve; the three frames are the runs with the
  result dropped.
-/
import proofs.«145548_j27169963114977_1_alg».proof.Defs
import proofs.«145548_j27169963114977_1_alg».proof.Proof.Gen.Kernel
import proofs.«145548_j27169963114977_1_alg».proof.Proof.Gen.Kernel.Frame
import proofs.«145548_j27169963114977_1_alg».proof.Proof.Gen.KernelIdeal
import proofs.«145548_j27169963114977_1_alg».proof.Proof.Gen.KernelIdeal.Frame
import proofs.«145548_j27169963114977_1_alg».proof.Proof.Gen.ReferenceIdeal
import proofs.«145548_j27169963114977_1_alg».proof.Proof.Gen.Pre_finite_inputs
import proofs.«145548_j27169963114977_1_alg».proof.Proof.SageKernelRun
import proofs.«145548_j27169963114977_1_alg».proof.Proof.SageKernelValue
import proofs.«145548_j27169963114977_1_alg».proof.Proof.SageRefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.SageRef.run m ρ)

/-- Both programs, run from memories that agree on the arguments, end with their result arrays at the network of the
    arguments. -/
theorem algebraic : Cert.algebraic_KernelIdeal_ReferenceIdeal := by
  intro m ρ m' ρ' _ hagree
  refine ⟨fun c => Cert.Sage.sage (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.SageValue.out2 m ρ c), (h c).2⟩)
      (Cert.KernelIdeal.SageRun.run_result (F := Ideal) m ρ)
  · refine (θ_run Cert.ReferenceIdeal.defs _ _).mono (fun _ h c => ⟨(h c).1.trans ?_, (h c).2⟩)
      (Cert.ReferenceIdeal.SageRef.run m' ρ')
    obtain ⟨h0, h1, h2, h3, h4⟩ := hagree c
    rw [h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
